-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S64x1 .f32) (main_arg10 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x1 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x64 .f32) (main_arg6 : FVec F S64x64 .f32) (main_arg7 : FVec F S64 .f32) (main_arg8 : FVec F S64x1 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x1 : Shape := ⟨2, ![1, 1]⟩

abbrev nBuf : Space → Nat
  | .hbm => 67
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x1, .f32⟩
  | .hbm, ⟨66, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S64x1, .f32⟩
  | .local _ .vmem, ⟨29, _⟩ => ⟨S64x1, .f32⟩
  | .local _ .vmem, ⟨30, _⟩ => ⟨S1x1, .f32⟩
  | .local _ .vmem, ⟨31, _⟩ => ⟨S4000x1, .f32⟩
  | .local _ .vmem, ⟨32, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S64_S1x64_1 : S64.BroadcastsInDim S1x64 (![1] : Fin 1 → Fin S1x64.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  bcast_S1_S1x1_1 : S1.BroadcastsInDim S1x1 (![1] : Fin 1 → Fin S1x1.rank)
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x64, .f32⟩
  | .hbm, ⟨107, _⟩ => ⟨S100000x64, .f32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S1x1, .f32⟩
  | .hbm, ⟨112, _⟩ => ⟨S100000x1, .f32⟩
  | .hbm, ⟨113, _⟩ => ⟨S100000x1, .f32⟩
  | .hbm, ⟨114, _⟩ => ⟨S100000x1, .f32⟩
  | .hbm, ⟨115, _⟩ => ⟨S100000x1, .f32⟩
  | .hbm, ⟨116, _⟩ => ⟨S_, .f32⟩
  | .hbm, ⟨117, _⟩ => ⟨S100000x1, .f32⟩
  | .hbm, ⟨118, _⟩ => ⟨S100000x1, .f32⟩
  | .hbm, ⟨119, _⟩ => ⟨S_, .f32⟩
  | .hbm, ⟨120, _⟩ => ⟨S100000x1, .f32⟩
  | .hbm, ⟨121, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel program's run with its result named.

  The program is six segments: three stretches of host operations, each followed by one pipelined region. The
  buffer contents at every segment boundary are a fold from the launch memory; this module reads the final
  boundary's contents at the result buffer as well as at the arguments: every weakly fair execution terminates,
  nothing faults, the result buffer holds what the last region's write-backs leave, and the arguments are as
  launched.
-/
import proofs.«171230_j26096221290642_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_named : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Val

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«171230_j26096221290642_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibSageLayer.lean ====
/-
  One layer of a mean-aggregating graph convolution, read at coordinates on the extended reals.

  At node `p` and output feature `q` the layer, before its activation, is

      (Σ_k (agg (p, k) / max (deg p) 1) · wl (k, q))  +  (Σ_k x (p, k) · wr (k, q))  +  b q

  where `agg` holds the summed neighbour features of every node, `deg` the number of incoming edges, `x` the
  node's own features, `wl`, `wr` the two weight matrices and `b` the bias. The value depends on row `p` of
  `agg` and `x` and on entry `p` of `deg` only, so a block of rows computes the same numbers as the whole array.

  Two spellings are read at `(p, q)` and shown to be this expression: a kernel body's (the degree a column
  block, clamped and repeated over the columns, a quotient, two matrix products into zero accumulators through
  narrowed operands — narrowing is the identity on the extended reals —, a bias row repeated over the rows),
  and a host program's (the degree a vector, clamped, stood up as a column and repeated, a quotient, two
  `dot_general`s, a bias vector laid out as a row and repeated). No law beyond reading each operation at an
  index is used, so nothing here needs a finite input.
-/
import proofs.«171230_j26096221290642_1_alg».proof.Proof.LibPlainDot
import proofs.«171230_j26096221290642_1_alg».proof.Proof.LibLayout
import proofs.«171230_j26096221290642_1_alg».proof.Proof.LibGcnLayer
import proofs.«171230_j26096221290642_1_alg».proof.Proof.LibHostDense
import Idealize.ShloMosaic.Lib.ValueLayout
import Idealize.ShloMosaic.Lib.ValueIdx
import Idealize.ShloMosaic.Lib.Pipeline.Value
import Idealize.ShloMosaic.PureOps.Ideal.Laws

noncomputable section

namespace Cert.Sage

open Idealize.ShloMosaic Idealize.ShloMosaic.ValueIdx
open scoped BigOperators

variable {n d e : ℕ}

/-- The layer before its activation at node `p`, feature `q`. The degree and the bias are given by coordinate. -/
def pre (agg : FVec Ideal ⟨2, ![n, d]⟩ .f32) (dg : Fin n → EReal) (x : FVec Ideal ⟨2, ![n, d]⟩ .f32)
    (wl wr : FVec Ideal ⟨2, ![d, e]⟩ .f32) (b : Fin e → EReal) (p : Fin n) (q : Fin e) : EReal :=
  ((∑ k : Fin d, Ideal.div (agg (ix2 p k)) (max (dg p) (Ideal.ofBits .f32 0x3F800000#32)) * wl (ix2 k q))
    + ∑ k : Fin d, x (ix2 p k) * wr (ix2 k q)) + b q

/-- The layer at node `p`, feature `q` reads row `p` of the aggregate and of the features, entry `p` of the
    degree, column `q` of the two weight matrices and entry `q` of the bias: two families of arrays, of any numbers
    of rows, that agree there give the same value. -/
theorem pre_congr {n' : ℕ} (agg : FVec Ideal ⟨2, ![n, d]⟩ .f32) (agg' : FVec Ideal ⟨2, ![n', d]⟩ .f32)
    (dg : Fin n → EReal) (dg' : Fin n' → EReal) (x : FVec Ideal ⟨2, ![n, d]⟩ .f32) (x' : FVec Ideal ⟨2, ![n', d]⟩ .f32)
    (wl wr wl' wr' : FVec Ideal ⟨2, ![d, e]⟩ .f32) (b b' : Fin e → EReal) (p : Fin n) (p' : Fin n') (q : Fin e)
    (ha : ∀ k, agg (ix2 p k) = agg' (ix2 p' k)) (hd : dg p = dg' p') (hx : ∀ k, x (ix2 p k) = x' (ix2 p' k))
    (hwl : ∀ k, wl (ix2 k q) = wl' (ix2 k q)) (hwr : ∀ k, wr (ix2 k q) = wr' (ix2 k q)) (hb : b q = b' q) :
    pre agg dg x wl wr b p q = pre agg' dg' x' wl' wr' b' p' q := by
  unfold pre
  rw [hd, hb]
  congr 2
  · exact Finset.sum_congr rfl fun k _ => by rw [ha k, hwl k]
  · exact Finset.sum_congr rfl fun k _ => by rw [hx k, hwr k]

/-- A kernel body's spelling of the layer on a block of `nb` rows, read at `(p, q)`. -/
theorem kernel_pre_apply {nb : ℕ} (dk : DotDims ⟨2, ![nb, d]⟩ ⟨2, ![d, e]⟩ ⟨2, ![nb, e]⟩)
    (hlc : dk.lhsContracting = [1]) (hrc : dk.rhsContracting = [0]) (hlb : dk.lhsBatch = []) (hrb : dk.rhsBatch = [])
    (hln : dk.lhsNonContracting = [0]) (hrn : dk.rhsNonContracting = [1])
    (a : FVec Ideal ⟨2, ![nb, d]⟩ .f32) (dg : FVec Ideal ⟨2, ![nb, 1]⟩ .f32) (x : FVec Ideal ⟨2, ![nb, d]⟩ .f32)
    (wl wr : FVec Ideal ⟨2, ![d, e]⟩ .f32) (b : FVec Ideal ⟨2, ![1, e]⟩ .f32)
    (hb1 : (⟨2, ![nb, 1]⟩ : Shape).Broadcasts ⟨2, ![nb, d]⟩) (hb2 : (⟨2, ![1, e]⟩ : Shape).Broadcasts ⟨2, ![nb, e]⟩)
    (ht : FTy.bf16.bits < FTy.f32.bits) (p : Fin nb) (q : Fin e) :
    addf (addf
        (matmul dk none
          (truncf .bf16 (divf a (broadcastTo ⟨2, ![nb, d]⟩
            (maximumf dg (broadcast ⟨2, ![nb, 1]⟩ (Scalar.ofBits (F := Ideal) .f32 0x3F800000#32))) hb1)) ht)
          (truncf .bf16 wl ht) (constant ⟨2, ![nb, e]⟩ .f32 0x00000000#32))
        (matmul dk none (truncf .bf16 x ht) (truncf .bf16 wr ht) (constant ⟨2, ![nb, e]⟩ .f32 0x00000000#32)))
      (broadcastTo ⟨2, ![nb, e]⟩ b hb2) (ix2 p q)
    = pre a (fun r => dg (ix2 r (0 : Fin 1))) x wl wr (fun c => b (ix2 (0 : Fin 1) c)) p q := by
  rw [addf_apply, addf_apply]
  unfold matmul
  rw [Cert.LibPlainDot.matmul_plain_apply dk hlc hrc hlb hrb hln hrn,
    Cert.LibPlainDot.matmul_plain_apply dk hlc hrc hlb hrb hln hrn, broadcastTo_1b_ab_apply]
  unfold pre
  congr 2
  refine Finset.sum_congr rfl fun k _ => ?_
  rw [truncf_apply, truncf_apply, divf_apply, broadcastTo_a1_ab_apply, maximumf_apply, broadcast_apply]
  rfl

/-- A host program's spelling of the layer on the whole array of `N` nodes, read at `(p, q)`. -/
theorem host_pre_apply {N : ℕ} (dh : DotDims ⟨2, ![N, d]⟩ ⟨2, ![d, e]⟩ ⟨2, ![N, e]⟩)
    (hlc : dh.lhsContracting = [1]) (hrc : dh.rhsContracting = [0]) (hlb : dh.lhsBatch = []) (hrb : dh.rhsBatch = [])
    (hln : dh.lhsNonContracting = [0]) (hrn : dh.rhsNonContracting = [1])
    (A : FVec Ideal ⟨2, ![N, d]⟩ .f32) (dv : FVec Ideal ⟨1, ![N]⟩ .f32) (X : FVec Ideal ⟨2, ![N, d]⟩ .f32)
    (wl wr : FVec Ideal ⟨2, ![d, e]⟩ .f32) (bv : FVec Ideal ⟨1, ![e]⟩ .f32)
    (h0 : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hcc : (⟨2, ![N, 1]⟩ : Shape).BroadcastsInDim ⟨2, ![N, d]⟩ (![0, 1] : Fin 2 → Fin 2))
    (h1 : (⟨1, ![e]⟩ : Shape).BroadcastsInDim ⟨2, ![1, e]⟩ (![1] : Fin 1 → Fin 2))
    (h2 : (⟨2, ![1, e]⟩ : Shape).BroadcastsInDim ⟨2, ![N, e]⟩ (![0, 1] : Fin 2 → Fin 2)) (p : Fin N) (q : Fin e) :
    addf (addf
        (Host.dotGeneral dh none
          (Host.divf A (broadcastInDim ⟨2, ![N, d]⟩ ![0, 1] hcc (broadcastInDim ⟨2, ![N, 1]⟩ ![0] hc
            (maximumf dv (broadcastInDim ⟨1, ![N]⟩ ![] h0 (constant (F := Ideal) ⟨0, ![]⟩ .f32 0x3F800000#32)))))) wl)
        (Host.dotGeneral dh none X wr))
      (broadcastInDim ⟨2, ![N, e]⟩ ![0, 1] h2 (broadcastInDim ⟨2, ![1, e]⟩ ![1] h1 bv)) (ix2 p q)
    = pre A (fun r => dv (ix1 r)) X wl wr (fun c => bv (ix1 c)) p q := by
  rw [addf_apply, addf_apply, Cert.LibHostDense.hostDot_plain_apply dh hlc hrc hlb hrb hln hrn,
    Cert.LibHostDense.hostDot_plain_apply dh hlc hrc hlb hrb hln hrn, Cert.LibGcnLayer.bcastRowRows_apply]
  unfold pre
  congr 2
  refine Finset.sum_congr rfl fun k _ => ?_
  show Ideal.div (A (ix2 p k)) _ * _ = _
  rw [Cert.LibGcnLayer.bcastCols_apply, Cert.LibGcnLayer.bcastCol_apply, maximumf_apply,
    Cert.LibHostDense.bcastScalar_apply, constant_apply]

/-- The logistic function in a host program's expanded spelling, `1 / (1 + e^(−z))`, is the logistic function. -/
theorem logistic_expanded (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
    = FloatOps.logistic (F := Ideal) (φ := .f32) z := by
  have h1 : Ideal.ofBits .f32 0x3F800000#32 = (1 : EReal) := by
    simp [Ideal.ofBits, Ideal.ieee, -EReal.coe_mul]; norm_num
  rw [h1]
  rfl

/-! ## The layer as a whole array -/

/-- The layer on all `N` nodes with the degree given as a column `[N, 1]` and the bias as a row `[1, e]` (the
    layout a kernel's operands have), followed by an activation `act`. -/
def layerK {N : ℕ} (act : EReal → EReal) (A : FVec Ideal ⟨2, ![N, d]⟩ .f32) (D : FVec Ideal ⟨2, ![N, 1]⟩ .f32)
    (X : FVec Ideal ⟨2, ![N, d]⟩ .f32) (wl wr : FVec Ideal ⟨2, ![d, e]⟩ .f32) (b : FVec Ideal ⟨2, ![1, e]⟩ .f32) :
    FVec Ideal ⟨2, ![N, e]⟩ .f32 :=
  fun i => act (pre A (fun r => D (ix2 r (0 : Fin 1))) X wl wr (fun c => b (ix2 (0 : Fin 1) c)) (i 0) (i 1))

theorem layerK_apply {N : ℕ} (act : EReal → EReal) (A : FVec Ideal ⟨2, ![N, d]⟩ .f32) (D : FVec Ideal ⟨2, ![N, 1]⟩ .f32)
    (X : FVec Ideal ⟨2, ![N, d]⟩ .f32) (wl wr : FVec Ideal ⟨2, ![d, e]⟩ .f32) (b : FVec Ideal ⟨2, ![1, e]⟩ .f32)
    (p : Fin N) (q : Fin e) :
    layerK act A D X wl wr b (ix2 p q)
      = act (pre A (fun r => D (ix2 r (0 : Fin 1))) X wl wr (fun c => b (ix2 (0 : Fin 1) c)) p q) := rfl

/-- The same layer with the degree and the bias given as vectors (the layout a host program's operands have). -/
def layerH {N : ℕ} (act : EReal → EReal) (A : FVec Ideal ⟨2, ![N, d]⟩ .f32) (dv : FVec Ideal ⟨1, ![N]⟩ .f32)
    (X : FVec Ideal ⟨2, ![N, d]⟩ .f32) (wl wr : FVec Ideal ⟨2, ![d, e]⟩ .f32) (bv : FVec Ideal ⟨1, ![e]⟩ .f32) :
    FVec Ideal ⟨2, ![N, e]⟩ .f32 :=
  fun i => act (pre A (fun r => dv (ix1 r)) X wl wr (fun c => bv (ix1 c)) (i 0) (i 1))

theorem layerH_apply {N : ℕ} (act : EReal → EReal) (A : FVec Ideal ⟨2, ![N, d]⟩ .f32) (dv : FVec Ideal ⟨1, ![N]⟩ .f32)
    (X : FVec Ideal ⟨2, ![N, d]⟩ .f32) (wl wr : FVec Ideal ⟨2, ![d, e]⟩ .f32) (bv : FVec Ideal ⟨1, ![e]⟩ .f32)
    (p : Fin N) (q : Fin e) :
    layerH act A dv X wl wr bv (ix2 p q) = act (pre A (fun r => dv (ix1 r)) X wl wr (fun c => bv (ix1 c)) p q) := rfl

/-- Standing the degree vector up as a column and laying the bias vector out as a row changes nothing. -/
theorem layerK_eq_layerH {N : ℕ} (act : EReal → EReal) (A : FVec Ideal ⟨2, ![N, d]⟩ .f32) (dv : FVec Ideal ⟨1, ![N]⟩ .f32)
    (X : FVec Ideal ⟨2, ![N, d]⟩ .f32) (wl wr : FVec Ideal ⟨2, ![d, e]⟩ .f32) (bv : FVec Ideal ⟨1, ![e]⟩ .f32)
    (hc : (⟨1, ![N]⟩ : Shape).BroadcastsInDim ⟨2, ![N, 1]⟩ (![0] : Fin 1 → Fin 2))
    (h1 : (⟨1, ![e]⟩ : Shape).BroadcastsInDim ⟨2, ![1, e]⟩ (![1] : Fin 1 → Fin 2)) :
    layerK act A (broadcastInDim ⟨2, ![N, 1]⟩ ![0] hc dv) X wl wr (broadcastInDim ⟨2, ![1, e]⟩ ![1] h1 bv)
      = layerH act A dv X wl wr bv := by
  funext i
  unfold layerK layerH
  congr 2
  · funext r; exact Cert.LibGcnLayer.bcastCol_apply dv hc r 0
  · funext c; exact Cert.LibHostDense.bcastRow_apply bv h1 0 c

/-- The rectifier: the maximum with the f32 zero word. -/
def relu (z : EReal) : EReal := max z (Ideal.ofBits .f32 0x00000000#32)

/-- The logistic function `1 / (1 + e^(−z))` on the extended reals (0 at −∞, 1 at +∞). -/
def sigm (z : EReal) : EReal := FloatOps.logistic (F := Ideal) (φ := .f32) z

end Cert.Sage

end
-- ==== Proof.Blocks0.lean ====
/-
  Layer 0 of the network on the device: what the pipelined region leaves in its result array.

  The region visits 25 grid points; point `t` is handed rows `t · 4000 … t · 4000 + 3999` of the aggregate, of the
  degree column and of the node features, the two weight matrices and the bias row whole, and writes back the
  same rows of the result. Its body computes, at local row `p` and feature `q`, the layer of LibSageLayer.lean followed
  by the rectifier. Because the layer at a node reads that node's row only, the block a point writes
  back is the corresponding block of ONE whole-array function of the arrays as the region finds them; the 25
  blocks tile the result, so the result array ends holding that function.
-/
import proofs.«171230_j26096221290642_1_alg».proof.Proof.Gen.KernelIdeal.Frame
import proofs.«171230_j26096221290642_1_alg».proof.Proof.LibSageLayer

set_option maxRecDepth 16384

noncomputable section

namespace Cert.KernelIdeal.Blocks0

open Cert.KernelIdeal Cert.KernelIdeal.Gen Cert.Sage
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- Row `p` of the block of 4000 rows that grid point `tv` of 25 handles is row `tv · 4000 + p` of the array. -/
def row (tv : ℕ) (h : tv < 25) (p : Fin 4000) : Fin 100000 := ⟨tv * 4000 + p.val, by have := p.isLt; omega⟩

/-- The body's stored value at local row `p`, feature `q`: the layer of the blocks it loaded, then the activation. -/
theorem pay_apply (x1 : Vec Ideal S4000x1 .f32) (x0 x2 : Vec Ideal S4000x128 .f32) (x3 x4 : Vec Ideal S128x64 .f32)
    (x5 : Vec Ideal S1x64 .f32) (p : Fin 4000) (q : Fin 64) :
    k0_pay1 (F := Ideal) x1 x0 x2 x3 x4 x5 (ix2 p q)
      = relu (pre x0 (fun r => x1 (ix2 r (0 : Fin 1))) x2 x3 x4 (fun c => x5 (ix2 (0 : Fin 1) c)) p q) := by
  unfold k0_pay1
  simp only [shapeCast_self]
  rw [maximumf_apply, broadcast_apply]
  unfold relu
  refine congrArg (fun z => max z _) ?_
  exact kernel_pre_apply dot_S4000x128_S128x64_S4000x64_1_0_0_1_n_n rfl rfl rfl rfl rfl rfl x0 x1 x2 x3 x4 x5 _ _ _ p q

/-- The printed index maps over the grid: the three row-blocked operands and the result sit at block `(t, 0)`, the
    weights and the bias at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt N_0

variable (V : (c : Dev nD) → (b : Ref sig .tc) → Buf (Elt Ideal) ((c : Thread nD τ).loc b))

/-! ## Each operand's block at point `t`, read where it sits in its array -/

theorem rd0 (c : Dev nD) (t : Fin cfg0.N) (p : Fin 4000) (k : Fin 128) :
    iblk0 V c 0 t (ix2 p k) = V c main_v18 (ix2 (row t.val (t_lt t) p) k) := by
  obtain ⟨e0, e1, -⟩ := idx_facts t
  show V c main_v18 (((cfg0.win 0).blk t).view.emb (ix2 p k)) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem rd1 (c : Dev nD) (t : Fin cfg0.N) (p : Fin 4000) :
    iblk0 V c 1 t (ix2 p (0 : Fin 1)) = V c main_v8 (ix2 (row t.val (t_lt t) p) (0 : Fin 1)) := by
  obtain ⟨-, -, e0, e1, -⟩ := idx_facts t
  show V c main_v8 (((cfg0.win 1).blk t).view.emb (ix2 p (0 : Fin 1))) = _
  refine congrArg _ (funext fun a => Fin.ext ?_)
  match a with
  | ⟨0, _⟩ => show win0_1.index t (0 : Fin 2) * 4000 + 1 * p.val = t.val * 4000 + p.val; omega
  | ⟨1, _⟩ => show win0_1.index t (1 : Fin 2) * 1 + 1 * 0 = 0; omega

theorem rd2 (c : Dev nD) (t : Fin cfg0.N) (p : Fin 4000) (k : Fin 128) :
    iblk0 V c 2 t (ix2 p k) = V c main_arg0 (ix2 (row t.val (t_lt t) p) k) := by
  obtain ⟨-, -, -, -, e0, e1, -⟩ := idx_facts t
  show V c main_arg0 (((cfg0.win 2).blk t).view.emb (ix2 p k)) = _
  refine congrArg _ (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem rd3 (c : Dev nD) (t : Fin cfg0.N) (k : Fin 128) (q : Fin 64) :
    iblk0 V c 3 t (ix2 k q) = V c main_arg2 (ix2 k q) := by
  obtain ⟨-, -, -, -, -, -, e0, e1, -⟩ := idx_facts t
  show V c main_arg2 (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

theorem rd4 (c : Dev nD) (t : Fin cfg0.N) (k : Fin 128) (q : Fin 64) :
    iblk0 V c 4 t (ix2 k q) = V c main_arg3 (ix2 k q) := by
  obtain ⟨-, -, -, -, -, -, -, -, e0, e1, -⟩ := idx_facts t
  show V c main_arg3 (((cfg0.win 4).blk t).view.emb (ix2 k q)) = _
  refine congrArg _ (funext fun a => Fin.ext ?_)
  match a with
  | ⟨0, _⟩ => show win0_4.index t (0 : Fin 2) * 128 + 1 * k.val = k.val; omega
  | ⟨1, _⟩ => show win0_4.index t (1 : Fin 2) * 64 + 1 * q.val = q.val; omega

theorem rd5 (c : Dev nD) (t : Fin cfg0.N) (q : Fin 64) :
    iblk0 V c 5 t (ix2 (0 : Fin 1) q) = V c main_v19 (ix2 (0 : Fin 1) q) := by
  obtain ⟨-, -, -, -, -, -, -, -, -, -, e0, e1, -⟩ := idx_facts t
  show V c main_v19 (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-- The result's block at point `t` sits at rows `t · 4000 …` of the result array. -/
theorem emb6 (t : Fin cfg0.N) (p : Fin 4000) (q : Fin 64) :
    ((cfg0.win 6).blk t).view.emb (ix2 p q) = ix2 (row t.val (t_lt t) p) q := by
  obtain ⟨-, -, -, -, -, -, -, -, -, -, -, -, e0, e1⟩ := idx_facts t
  refine funext fun a => Fin.ext ?_
  match a with
  | ⟨0, _⟩ => show win0_6.index t (0 : Fin 2) * 4000 + 1 * p.val = t.val * 4000 + p.val; omega
  | ⟨1, _⟩ => show win0_6.index t (1 : Fin 2) * 64 + 1 * q.val = q.val; omega

/-! ## From the blocks to the array -/

/-- What point `t` writes back is block `t` of the whole-array layer of the arrays as the region finds them. -/
theorem flushed_eq (c : Dev nD) (t : Fin cfg0.N) :
    (dat0 V c).flushed 6 t = ((cfg0.win 6).blk t).view.read (Elt Ideal)
      (layerK relu (V c main_v18) (V c main_v8) (V c main_arg0) (V c main_arg2) (V c main_arg3) (V c main_v19)) := by
  show (cfg0.win 6).cut (grid0.coords t) ((dat0 V c).after 6 t) = _
  rw [after0_6]
  unfold out0_6
  rw [View.canon_unit_zero hz]
  simp only [View.ld_unit_zero (S := S4000x1) hz, View.ld_unit_zero (S := S4000x128) hz, View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  show k0_pay1 (iblk0 V c 1 t) (iblk0 V c 0 t) (iblk0 V c 2 t) (iblk0 V c 3 t) (iblk0 V c 4 t) (iblk0 V c 5 t) (ix2 p q)
    = layerK relu (V c main_v18) (V c main_v8) (V c main_arg0) (V c main_arg2) (V c main_arg3) (V c main_v19)
        (((cfg0.win 6).blk t).view.emb (ix2 p q))
  rw [emb6 t p q, layerK_apply]
  refine (pay_apply (iblk0 V c 1 t) (iblk0 V c 0 t) (iblk0 V c 2 t) (iblk0 V c 3 t) (iblk0 V c 4 t) (iblk0 V c 5 t) p q).trans ?_
  refine congrArg relu ?_
  exact pre_congr _ _ _ _ _ _ _ _ _ _ _ _ p (row t.val (t_lt t) p) q
    (fun k => rd0 V c t p k) (rd1 V c t p) (fun k => rd2 V c t p k)
    (fun k => rd3 V c t k q) (fun k => rd4 V c t k q) (rd5 V c t q)

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v20).slice (win0_6.rect t)).set ↔ _
  rw [View.set_slice_whole, Rect.mem_set_unit]
  exact Iff.rfl

/-- Every index of the result array is in some point's block: row `r` is in the block of point `r / 4000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- The result array after the region: the whole-array layer of the arrays as the region finds them. -/
theorem final (c : Dev nD) : (dat0 V c).arrAt 6 cfg0.N
    = layerK relu (V c main_v18) (V c main_v8) (V c main_arg0) (V c main_arg2) (V c main_arg3) (V c main_v19) :=
  (dat0 V c).arrAt_eq_of_cover 6 _ (fun t _ => flushed_eq V c t) cover

end Cert.KernelIdeal.Blocks0

end
-- ==== Proof.RefSide.lean ====
/-
  The reference program, layer by layer.

  The reference's operations are read as stages, each a function of the arguments. This module shows that
  the stage closing each of its three layers is the whole-array layer of LibSageLayer.lean — of that layer's aggregate stage
  (a scatter-add of gathered rows, kept as one opaque array), of its degree stage (a scatter-add of ones, also
  opaque), of the previous layer's closing stage (the arguments' features for the first layer) and of the layer's
  weights and bias — followed by the rectifier for the first two layers and by the logistic function, which the
  reference spells `1 / (1 + e^(−z))`, for the last.
-/
import proofs.«171230_j26096221290642_1_alg».proof.Proof.Gen.ReferenceIdeal.Read
import proofs.«171230_j26096221290642_1_alg».proof.Proof.LibSageLayer

noncomputable section

namespace Cert.Sage.RefSide

open Cert.ReferenceIdeal Cert.ReferenceIdeal.Read Cert.Sage
open Idealize.ShloMosaic Idealize.ShloMosaic.ValueIdx

/-- Layer 0 of the reference. -/
theorem ref29 (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal)) :
    val_main_v29 (F := Ideal) x0 x1 x2 x3 x4
      = layerH relu (val_main_v13 (F := Ideal) x0 x1) (val_main_v17 (F := Ideal) x1) x0 x2 x3 x4 := by
  funext i
  obtain ⟨p, q, rfl⟩ : ∃ (p : Fin 100000) (q : Fin 64), i = ix2 p q := ⟨i 0, i 1, eq_ix2 i⟩
  rw [layerH_apply]
  unfold val_main_v29 val_main_v28 val_main_v25 val_main_v23 val_main_v24 val_main_v22 val_main_v21 val_main_v20
    val_main_v19 val_main_v18 val_main_cst_3 val_main_v27 val_main_v26 val_main_call0_v0 val_main_call0_cst
  generalize val_main_v13 (F := Ideal) x0 x1 = A
  generalize val_main_v17 (F := Ideal) x1 = dv
  rw [maximumf_apply]
  unfold relu
  refine congrArg₂ max ?_ ?_
  · exact host_pre_apply dot_S100000x128_S128x64_S100000x64_1_0_0_1_n_n rfl rfl rfl rfl rfl rfl A dv x0 x2 x3 x4 _ _ _ _ _ p q
  · rw [Cert.LibHostDense.bcastScalar_apply, constant_apply]

/-- Layer 1 of the reference. -/
theorem ref55 (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    val_main_v55 (F := Ideal) x0 x1 x2 x3 x4 x5 x6 x7
      = layerH relu (val_main_v39 (F := Ideal) x0 x1 x2 x3 x4) (val_main_v43 (F := Ideal) x1) (val_main_v29 (F := Ideal) x0 x1 x2 x3 x4) x5 x6 x7 := by
  funext i
  obtain ⟨p, q, rfl⟩ : ∃ (p : Fin 100000) (q : Fin 64), i = ix2 p q := ⟨i 0, i 1, eq_ix2 i⟩
  rw [layerH_apply]
  unfold val_main_v55 val_main_v54 val_main_v51 val_main_v49 val_main_v50 val_main_v48 val_main_v47 val_main_v46
    val_main_v45 val_main_v44 val_main_cst_9 val_main_v53 val_main_v52 val_main_call1_v0 val_main_call1_cst
  generalize val_main_v39 (F := Ideal) x0 x1 x2 x3 x4 = A
  generalize val_main_v43 (F := Ideal) x1 = dv
  generalize val_main_v29 (F := Ideal) x0 x1 x2 x3 x4 = X
  rw [maximumf_apply]
  unfold relu
  refine congrArg₂ max ?_ ?_
  · exact host_pre_apply dot_S100000x64_S64x64_S100000x64_1_0_0_1_n_n rfl rfl rfl rfl rfl rfl A dv X x5 x6 x7 _ _ _ _ _ p q
  · rw [Cert.LibHostDense.bcastScalar_apply, constant_apply]

/-- Layer 2 of the reference before its activation, at node `p` (its one feature is `q`). -/
theorem ref80_apply (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x1, .f32⟩ : BufTy).Contents (Elt Ideal)) (x10 : (⟨S1, .f32⟩ : BufTy).Contents (Elt Ideal)) (p : Fin 100000) (q : Fin 1) :
    val_main_v80 (F := Ideal) x0 x1 x2 x3 x4 x5 x6 x7 x8 x9 x10 (ix2 p q)
      = pre (val_main_v65 (F := Ideal) x0 x1 x2 x3 x4 x5 x6 x7) (fun r => val_main_v69 (F := Ideal) x1 (ix1 r))
          (val_main_v55 (F := Ideal) x0 x1 x2 x3 x4 x5 x6 x7) x8 x9 (fun c => x10 (ix1 c)) p q := by
  unfold val_main_v80 val_main_v77 val_main_v75 val_main_v76 val_main_v74 val_main_v73 val_main_v72 val_main_v71
    val_main_v70 val_main_cst_15 val_main_v79 val_main_v78
  generalize val_main_v65 (F := Ideal) x0 x1 x2 x3 x4 x5 x6 x7 = A
  generalize val_main_v69 (F := Ideal) x1 = dv
  generalize val_main_v55 (F := Ideal) x0 x1 x2 x3 x4 x5 x6 x7 = X
  exact host_pre_apply dot_S100000x64_S64x1_S100000x1_1_0_0_1_n_n rfl rfl rfl rfl rfl rfl A dv X x8 x9 x10 _ _ _ _ _ p q

/-- The reference's spelling of the logistic function at one entry: with the f32 word of one read as the number one,
    `1 / (1 + e^(−z))` is the logistic function of `z`. -/
theorem sigm_expanded (z : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) z)))
    = sigm z := by
  have h1 : FloatOps.ofBits (F := Ideal) .f32 0x3F800000#32 = (1 : EReal) := by
    show Ideal.ofBits .f32 0x3F800000#32 = 1
    simp [Ideal.ofBits, Ideal.ieee, -EReal.coe_mul]; norm_num
  rw [h1]
  rfl

/-- Layer 2 of the reference: the logistic function, spelt `1 / (1 + e^(−z))`, of the layer. -/
theorem ref86 (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x1, .f32⟩ : BufTy).Contents (Elt Ideal)) (x10 : (⟨S1, .f32⟩ : BufTy).Contents (Elt Ideal)) :
    val_main_v86 (F := Ideal) x0 x1 x2 x3 x4 x5 x6 x7 x8 x9 x10
      = layerH sigm (val_main_v65 (F := Ideal) x0 x1 x2 x3 x4 x5 x6 x7) (val_main_v69 (F := Ideal) x1) (val_main_v55 (F := Ideal) x0 x1 x2 x3 x4 x5 x6 x7) x8 x9 x10 := by
  funext i
  obtain ⟨p, q, rfl⟩ : ∃ (p : Fin 100000) (q : Fin 1), i = ix2 p q := ⟨i 0, i 1, eq_ix2 i⟩
  rw [layerH_apply, ← ref80_apply x0 x1 x2 x3 x4 x5 x6 x7 x8 x9 x10 p q]
  rw [val_main_v86_apply, val_main_v85_apply, val_main_cst_17_apply, val_main_v84_apply, val_main_v83_apply,
    val_main_cst_16_apply, val_main_v82_apply, val_main_v81_apply]
  generalize val_main_v80 (F := Ideal) x0 x1 x2 x3 x4 x5 x6 x7 x8 x9 x10 (ix2 p q) = z
  exact sigm_expanded z

end Cert.Sage.RefSide

end
-- ==== Proof.Walk1.lean ====
/-
  The idealized kernel program's buffers at its first two segment boundaries, as functions of the launch arguments.

  After the first stretch of host operations: the aggregate of the node features (a scatter-add, by destination
  node, of the feature rows gathered by source node), the degree column (a scatter-add of ones stood up as a
  column), the bias row, and the two edge-index vectors. These are the same operations, on the same arguments,
  as the reference program's first stages, so they are stated as those stages. After the first region: its result
  array is the whole-array layer of these (Blocks0.lean), which is the reference's stage closing its first layer
  (RefSide.lean) once the column and row layouts are read back as the vectors they were made from.
-/
import proofs.«171230_j26096221290642_1_alg».proof.Proof.Gen.KernelIdeal.Frame
import proofs.«171230_j26096221290642_1_alg».proof.Proof.Gen.ReferenceIdeal.Read
import proofs.«171230_j26096221290642_1_alg».proof.Proof.LibSageLayer
import proofs.«171230_j26096221290642_1_alg».proof.Proof.Blocks0
import proofs.«171230_j26096221290642_1_alg».proof.Proof.RefSide
import Idealize.ShloMosaic.Lib.StableHlo.Run

set_option maxRecDepth 16384

noncomputable section

namespace Cert.KernelIdeal.Walk

open Cert.KernelIdeal Cert.KernelIdeal.Gen Cert.Sage Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The launch arguments -/

abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)
abbrev x9 (c : Dev nD) := m ((c : Thread nD τ).loc main_arg9)
abbrev x10 (c : Dev nD) := m ((c : Thread nD τ).loc main_arg10)

/-! ## After the first stretch of host operations -/

set_option maxHeartbeats 4000000 in
theorem W1_v18 (c : Dev nD) : W1 m ρ c (Proc.devRef .tc main_v18) = val_main_v13 (F := Ideal) (x0 m c) (x1 m c) := by
  show StableHlo.after hostOps0 (W0 m ρ c) (Proc.devRef .tc main_v18) = _
  after_results_simp <;> rfl

set_option maxHeartbeats 4000000 in
theorem W1_v8 (c : Dev nD) : W1 m ρ c (Proc.devRef .tc main_v8) = broadcastInDim S100000x1 ![0] bcast_S100000_S100000x1_0 (val_main_v17 (F := Ideal) (x1 m c)) := by
  show StableHlo.after hostOps0 (W0 m ρ c) (Proc.devRef .tc main_v8) = _
  after_results_simp <;> rfl

set_option maxHeartbeats 4000000 in
theorem W1_v19 (c : Dev nD) : W1 m ρ c (Proc.devRef .tc main_v19) = val_main_v26 (F := Ideal) (x4 m c) := by
  show StableHlo.after hostOps0 (W0 m ρ c) (Proc.devRef .tc main_v19) = _
  after_results_simp <;> rfl

set_option maxHeartbeats 4000000 in
theorem W1_v1 (c : Dev nD) : W1 m ρ c (Proc.devRef .tc main_v1) = val_main_v1 (F := Ideal) (x1 m c) := by
  show StableHlo.after hostOps0 (W0 m ρ c) (Proc.devRef .tc main_v1) = _
  after_results_simp <;> rfl

set_option maxHeartbeats 4000000 in
theorem W1_v3 (c : Dev nD) : W1 m ρ c (Proc.devRef .tc main_v3) = val_main_v3 (F := Ideal) (x1 m c) := by
  show StableHlo.after hostOps0 (W0 m ρ c) (Proc.devRef .tc main_v3) = _
  after_results_simp <;> rfl

set_option maxHeartbeats 4000000 in
theorem W1_arg0 (c : Dev nD) : W1 m ρ c (Proc.devRef .tc main_arg0) = x0 m c := by
  show StableHlo.after hostOps0 (W0 m ρ c) (Proc.devRef .tc main_arg0) = _
  after_results_simp <;> rfl

set_option maxHeartbeats 4000000 in
theorem W1_arg2 (c : Dev nD) : W1 m ρ c (Proc.devRef .tc main_arg2) = x2 m c := by
  show StableHlo.after hostOps0 (W0 m ρ c) (Proc.devRef .tc main_arg2) = _
  after_results_simp <;> rfl

set_option maxHeartbeats 4000000 in
theorem W1_arg3 (c : Dev nD) : W1 m ρ c (Proc.devRef .tc main_arg3) = x3 m c := by
  show StableHlo.after hostOps0 (W0 m ρ c) (Proc.devRef .tc main_arg3) = _
  after_results_simp <;> rfl

set_option maxHeartbeats 4000000 in
theorem W1_arg5 (c : Dev nD) : W1 m ρ c (Proc.devRef .tc main_arg5) = x5 m c := by
  show StableHlo.after hostOps0 (W0 m ρ c) (Proc.devRef .tc main_arg5) = _
  after_results_simp <;> rfl

set_option maxHeartbeats 4000000 in
theorem W1_arg6 (c : Dev nD) : W1 m ρ c (Proc.devRef .tc main_arg6) = x6 m c := by
  show StableHlo.after hostOps0 (W0 m ρ c) (Proc.devRef .tc main_arg6) = _
  after_results_simp <;> rfl

set_option maxHeartbeats 4000000 in
theorem W1_arg7 (c : Dev nD) : W1 m ρ c (Proc.devRef .tc main_arg7) = x7 m c := by
  show StableHlo.after hostOps0 (W0 m ρ c) (Proc.devRef .tc main_arg7) = _
  after_results_simp <;> rfl

set_option maxHeartbeats 4000000 in
theorem W1_arg8 (c : Dev nD) : W1 m ρ c (Proc.devRef .tc main_arg8) = x8 m c := by
  show StableHlo.after hostOps0 (W0 m ρ c) (Proc.devRef .tc main_arg8) = _
  after_results_simp <;> rfl

set_option maxHeartbeats 4000000 in
theorem W1_arg9 (c : Dev nD) : W1 m ρ c (Proc.devRef .tc main_arg9) = x9 m c := by
  show StableHlo.after hostOps0 (W0 m ρ c) (Proc.devRef .tc main_arg9) = _
  after_results_simp <;> rfl

set_option maxHeartbeats 4000000 in
theorem W1_arg10 (c : Dev nD) : W1 m ρ c (Proc.devRef .tc main_arg10) = x10 m c := by
  show StableHlo.after hostOps0 (W0 m ρ c) (Proc.devRef .tc main_arg10) = _
  after_results_simp <;> rfl

/-! ## After the first region -/

/-- The first region's result array is the reference's first layer. -/
theorem W2_v20 (c : Dev nD) : W2 m ρ c (Proc.devRef .tc main_v20)
    = val_main_v29 (F := Ideal) (x0 m c) (x1 m c) (x2 m c) (x3 m c) (x4 m c) := by
  refine (W2_arr m ρ c 6).trans ((Cert.KernelIdeal.Blocks0.final (V1 m ρ) c).trans ?_)
  have e18 : V1 m ρ c main_v18 = _ := W1_v18 m ρ c
  have e8 : V1 m ρ c main_v8 = _ := W1_v8 m ρ c
  have e0 : V1 m ρ c main_arg0 = _ := W1_arg0 m ρ c
  have e2 : V1 m ρ c main_arg2 = _ := W1_arg2 m ρ c
  have e3 : V1 m ρ c main_arg3 = _ := W1_arg3 m ρ c
  have e19 : V1 m ρ c main_v19 = _ := W1_v19 m ρ c
  rw [e18, e8, e0, e2, e3, e19, Cert.Sage.RefSide.ref29]
  unfold val_main_v26
  exact layerK_eq_layerH relu _ _ _ _ _ _ _ _

/-- The degree column is an input of the region: it is read, not written. -/
theorem W2_v8 (c : Dev nD) : W2 m ρ c (Proc.devRef .tc main_v8) = broadcastInDim S100000x1 ![0] bcast_S100000_S100000x1_0 (val_main_v17 (F := Ideal) (x1 m c)) :=
  (W2_arr m ρ c 1).trans ((((dat0 (V1 m ρ) c).arrAt_in 1 rfl _).trans (A_eq0 (V1 m ρ) c 1)).trans (W1_v8 m ρ c))

theorem W2_v1 (c : Dev nD) : W2 m ρ c (Proc.devRef .tc main_v1) = val_main_v1 (F := Ideal) (x1 m c) :=
  (W2_of_ne m ρ c main_v1 (by decide)).trans (W1_v1 m ρ c)
theorem W2_v3 (c : Dev nD) : W2 m ρ c (Proc.devRef .tc main_v3) = val_main_v3 (F := Ideal) (x1 m c) :=
  (W2_of_ne m ρ c main_v3 (by decide)).trans (W1_v3 m ρ c)
theorem W2_arg5 (c : Dev nD) : W2 m ρ c (Proc.devRef .tc main_arg5) = x5 m c :=
  (W2_of_ne m ρ c main_arg5 (by decide)).trans (W1_arg5 m ρ c)
theorem W2_arg6 (c : Dev nD) : W2 m ρ c (Proc.devRef .tc main_arg6) = x6 m c :=
  (W2_of_ne m ρ c main_arg6 (by decide)).trans (W1_arg6 m ρ c)
theorem W2_arg7 (c : Dev nD) : W2 m ρ c (Proc.devRef .tc main_arg7) = x7 m c :=
  (W2_of_ne m ρ c main_arg7 (by decide)).trans (W1_arg7 m ρ c)
theorem W2_arg8 (c : Dev nD) : W2 m ρ c (Proc.devRef .tc main_arg8) = x8 m c :=
  (W2_of_ne m ρ c main_arg8 (by decide)).trans (W1_arg8 m ρ c)
theorem W2_arg9 (c : Dev nD) : W2 m ρ c (Proc.devRef .tc main_arg9) = x9 m c :=
  (W2_of_ne m ρ c main_arg9 (by decide)).trans (W1_arg9 m ρ c)
theorem W2_arg10 (c : Dev nD) : W2 m ρ c (Proc.devRef .tc main_arg10) = x10 m c :=
  (W2_of_ne m ρ c main_arg10 (by decide)).trans (W1_arg10 m ρ c)

end Cert.KernelIdeal.Walk

end
-- ==== Proof.Blocks1.lean ====
/-
  Layer 1 of the network on the device: what the pipelined region leaves in its result array.

  The region visits 25 grid points; point `t` is handed rows `t · 4000 … t · 4000 + 3999` of the aggregate, of the
  degree column and of the node features, the two weight matrices and the bias row whole, and writes back the
  same rows of the result. Its body computes, at local row `p` and feature `q`, the layer of LibSageLayer.lean followed
  by the rectifier. Because the layer at a node reads that node's row only, the block a point writes
  back is the corresponding block of ONE whole-array function of the arrays as the region finds them; the 25
  blocks tile the result, so the result array ends holding that function.
-/
import proofs.«171230_j26096221290642_1_alg».proof.Proof.Gen.KernelIdeal.Frame
import proofs.«171230_j26096221290642_1_alg».proof.Proof.LibSageLayer

set_option maxRecDepth 16384

noncomputable section

namespace Cert.KernelIdeal.Blocks1

open Cert.KernelIdeal Cert.KernelIdeal.Gen Cert.Sage
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- Row `p` of the block of 4000 rows that grid point `tv` of 25 handles is row `tv · 4000 + p` of the array. -/
def row (tv : ℕ) (h : tv < 25) (p : Fin 4000) : Fin 100000 := ⟨tv * 4000 + p.val, by have := p.isLt; omega⟩

/-- The body's stored value at local row `p`, feature `q`: the layer of the blocks it loaded, then the activation. -/
theorem pay_apply (x1 : Vec Ideal S4000x1 .f32) (x0 x2 : Vec Ideal S4000x64 .f32) (x3 x4 : Vec Ideal S64x64 .f32)
    (x5 : Vec Ideal S1x64 .f32) (p : Fin 4000) (q : Fin 64) :
    k1_pay1 (F := Ideal) x1 x0 x2 x3 x4 x5 (ix2 p q)
      = relu (pre x0 (fun r => x1 (ix2 r (0 : Fin 1))) x2 x3 x4 (fun c => x5 (ix2 (0 : Fin 1) c)) p q) := by
  unfold k1_pay1
  simp only [shapeCast_self]
  rw [maximumf_apply, broadcast_apply]
  unfold relu
  refine congrArg (fun z => max z _) ?_
  exact kernel_pre_apply dot_S4000x64_S64x64_S4000x64_1_0_0_1_n_n rfl rfl rfl rfl rfl rfl x0 x1 x2 x3 x4 x5 _ _ _ p q

/-- The printed index maps over the grid: the three row-blocked operands and the result sit at block `(t, 0)`, the
    weights and the bias at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 25 := lt_of_lt_of_eq t.isLt N_1

variable (V : (c : Dev nD) → (b : Ref sig .tc) → Buf (Elt Ideal) ((c : Thread nD τ).loc b))

/-! ## Each operand's block at point `t`, read where it sits in its array -/

theorem rd0 (c : Dev nD) (t : Fin cfg1.N) (p : Fin 4000) (k : Fin 64) :
    iblk1 V c 0 t (ix2 p k) = V c main_v30 (ix2 (row t.val (t_lt t) p) k) := by
  obtain ⟨e0, e1, -⟩ := idx_facts t
  show V c main_v30 (((cfg1.win 0).blk t).view.emb (ix2 p k)) = _
  refine congrArg _ (funext fun a => Fin.ext ?_)
  match a with
  | ⟨0, _⟩ => show win1_0.index t (0 : Fin 2) * 4000 + 1 * p.val = t.val * 4000 + p.val; omega
  | ⟨1, _⟩ => show win1_0.index t (1 : Fin 2) * 64 + 1 * k.val = k.val; omega

theorem rd1 (c : Dev nD) (t : Fin cfg1.N) (p : Fin 4000) :
    iblk1 V c 1 t (ix2 p (0 : Fin 1)) = V c main_v8 (ix2 (row t.val (t_lt t) p) (0 : Fin 1)) := by
  obtain ⟨-, -, e0, e1, -⟩ := idx_facts t
  show V c main_v8 (((cfg1.win 1).blk t).view.emb (ix2 p (0 : Fin 1))) = _
  refine congrArg _ (funext fun a => Fin.ext ?_)
  match a with
  | ⟨0, _⟩ => show win1_1.index t (0 : Fin 2) * 4000 + 1 * p.val = t.val * 4000 + p.val; omega
  | ⟨1, _⟩ => show win1_1.index t (1 : Fin 2) * 1 + 1 * 0 = 0; omega

theorem rd2 (c : Dev nD) (t : Fin cfg1.N) (p : Fin 4000) (k : Fin 64) :
    iblk1 V c 2 t (ix2 p k) = V c main_v20 (ix2 (row t.val (t_lt t) p) k) := by
  obtain ⟨-, -, -, -, e0, e1, -⟩ := idx_facts t
  show V c main_v20 (((cfg1.win 2).blk t).view.emb (ix2 p k)) = _
  refine congrArg _ (funext fun a => Fin.ext ?_)
  match a with
  | ⟨0, _⟩ => show win1_2.index t (0 : Fin 2) * 4000 + 1 * p.val = t.val * 4000 + p.val; omega
  | ⟨1, _⟩ => show win1_2.index t (1 : Fin 2) * 64 + 1 * k.val = k.val; omega

theorem rd3 (c : Dev nD) (t : Fin cfg1.N) (k : Fin 64) (q : Fin 64) :
    iblk1 V c 3 t (ix2 k q) = V c main_arg5 (ix2 k q) := by
  obtain ⟨-, -, -, -, -, -, e0, e1, -⟩ := idx_facts t
  show V c main_arg5 (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

theorem rd4 (c : Dev nD) (t : Fin cfg1.N) (k : Fin 64) (q : Fin 64) :
    iblk1 V c 4 t (ix2 k q) = V c main_arg6 (ix2 k q) := by
  obtain ⟨-, -, -, -, -, -, -, -, e0, e1, -⟩ := idx_facts t
  show V c main_arg6 (((cfg1.win 4).blk t).view.emb (ix2 k q)) = _
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

theorem rd5 (c : Dev nD) (t : Fin cfg1.N) (q : Fin 64) :
    iblk1 V c 5 t (ix2 (0 : Fin 1) q) = V c main_v31 (ix2 (0 : Fin 1) q) := by
  obtain ⟨-, -, -, -, -, -, -, -, -, -, e0, e1, -⟩ := idx_facts t
  show V c main_v31 (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- The result's block at point `t` sits at rows `t · 4000 …` of the result array. -/
theorem emb6 (t : Fin cfg1.N) (p : Fin 4000) (q : Fin 64) :
    ((cfg1.win 6).blk t).view.emb (ix2 p q) = ix2 (row t.val (t_lt t) p) q := by
  obtain ⟨-, -, -, -, -, -, -, -, -, -, -, -, e0, e1⟩ := idx_facts t
  refine funext fun a => Fin.ext ?_
  match a with
  | ⟨0, _⟩ => show win1_6.index t (0 : Fin 2) * 4000 + 1 * p.val = t.val * 4000 + p.val; omega
  | ⟨1, _⟩ => show win1_6.index t (1 : Fin 2) * 64 + 1 * q.val = q.val; omega

/-! ## From the blocks to the array -/

/-- What point `t` writes back is block `t` of the whole-array layer of the arrays as the region finds them. -/
theorem flushed_eq (c : Dev nD) (t : Fin cfg1.N) :
    (dat1 V c).flushed 6 t = ((cfg1.win 6).blk t).view.read (Elt Ideal)
      (layerK relu (V c main_v30) (V c main_v8) (V c main_v20) (V c main_arg5) (V c main_arg6) (V c main_v31)) := by
  show (cfg1.win 6).cut (grid1.coords t) ((dat1 V c).after 6 t) = _
  rw [after1_6]
  unfold out1_6
  rw [View.canon_unit_zero hz]
  simp only [View.ld_unit_zero (S := S4000x1) hz, View.ld_unit_zero (S := S4000x64) hz, View.ld_unit_zero (S := S64x64) hz, View.ld_unit_zero (S := S1x64) hz]
  funext j
  obtain ⟨p, q, rfl⟩ : ∃ (p : Fin 4000) (q : Fin 64), j = ix2 p q := ⟨j 0, j 1, eq_ix2 j⟩
  show k1_pay1 (iblk1 V c 1 t) (iblk1 V c 0 t) (iblk1 V c 2 t) (iblk1 V c 3 t) (iblk1 V c 4 t) (iblk1 V c 5 t) (ix2 p q)
    = layerK relu (V c main_v30) (V c main_v8) (V c main_v20) (V c main_arg5) (V c main_arg6) (V c main_v31)
        (((cfg1.win 6).blk t).view.emb (ix2 p q))
  rw [emb6 t p q, layerK_apply]
  refine (pay_apply (iblk1 V c 1 t) (iblk1 V c 0 t) (iblk1 V c 2 t) (iblk1 V c 3 t) (iblk1 V c 4 t) (iblk1 V c 5 t) p q).trans ?_
  refine congrArg relu ?_
  exact pre_congr _ _ _ _ _ _ _ _ _ _ _ _ p (row t.val (t_lt t) p) q
    (fun k => rd0 V c t p k) (rd1 V c t p) (fun k => rd2 V c t p k)
    (fun k => rd3 V c t k q) (fun k => rd4 V c t k q) (rd5 V c t q)

/-- An index of the result array is in point `t`'s block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v32).slice (win1_6.rect t)).set ↔ _
  rw [View.set_slice_whole, Rect.mem_set_unit]
  exact Iff.rfl

/-- Every index of the result array is in some point's block: row `r` is in the block of point `r / 4000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨-, -, -, -, -, -, -, -, -, -, -, -, e0, e1⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The result array after the region: the whole-array layer of the arrays as the region finds them. -/
theorem final (c : Dev nD) : (dat1 V c).arrAt 6 cfg1.N
    = layerK relu (V c main_v30) (V c main_v8) (V c main_v20) (V c main_arg5) (V c main_arg6) (V c main_v31) :=
  (dat1 V c).arrAt_eq_of_cover 6 _ (fun t _ => flushed_eq V c t) cover

end Cert.KernelIdeal.Blocks1

end
-- ==== Proof.Walk2.lean ====
/-
  The idealized kernel program's buffers at its third and fourth segment boundaries.

  The second stretch of host operations aggregates the first layer's result over the edges exactly as the
  reference's second layer aggregates its own first layer, and lays the second bias out as a row; every other
  buffer passes through. The second region's result array is then the whole-array layer of these (Blocks1.lean),
  which is the reference's stage closing its second layer (RefSide.lean). The degree is the same scatter-add of ones
  in every layer of the reference, so its later copies are identified with the first.
-/
import proofs.«171230_j26096221290642_1_alg».proof.Proof.Walk1
import proofs.«171230_j26096221290642_1_alg».proof.Proof.Blocks1
import Idealize.ShloMosaic.Lib.StableHlo.Run

set_option maxRecDepth 16384

noncomputable section

namespace Cert.KernelIdeal.Walk

open Cert.KernelIdeal Cert.KernelIdeal.Gen Cert.Sage Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The reference recomputes the degree in each layer; the copies are one array. -/
theorem deg43 (e : (⟨Cert.ReferenceIdeal.S2x1600000, .i32⟩ : BufTy).Contents (Elt Ideal)) :
    val_main_v43 (F := Ideal) e = val_main_v17 (F := Ideal) e := rfl
theorem deg69 (e : (⟨Cert.ReferenceIdeal.S2x1600000, .i32⟩ : BufTy).Contents (Elt Ideal)) :
    val_main_v69 (F := Ideal) e = val_main_v17 (F := Ideal) e := rfl

/-! ## After the second stretch of host operations -/

set_option maxHeartbeats 4000000 in
theorem W3_v30 (c : Dev nD) : W3 m ρ c (Proc.devRef .tc main_v30) = val_main_v39 (F := Ideal) (x0 m c) (x1 m c) (x2 m c) (x3 m c) (x4 m c) := by
  show StableHlo.after hostOps1 (W2 m ρ c) (Proc.devRef .tc main_v30) = _
  after_results_simp
  rw [W2_v20 m ρ c, W2_v1 m ρ c, W2_v3 m ρ c]
  rfl

set_option maxHeartbeats 4000000 in
theorem W3_v31 (c : Dev nD) : W3 m ρ c (Proc.devRef .tc main_v31) = val_main_v52 (F := Ideal) (x7 m c) := by
  show StableHlo.after hostOps1 (W2 m ρ c) (Proc.devRef .tc main_v31) = _
  after_results_simp
  rw [W2_arg7 m ρ c]
  rfl

set_option maxHeartbeats 4000000 in
theorem W3_v20 (c : Dev nD) : W3 m ρ c (Proc.devRef .tc main_v20) = val_main_v29 (F := Ideal) (x0 m c) (x1 m c) (x2 m c) (x3 m c) (x4 m c) := by
  show StableHlo.after hostOps1 (W2 m ρ c) (Proc.devRef .tc main_v20) = _
  after_results_simp
  exact W2_v20 m ρ c

set_option maxHeartbeats 4000000 in
theorem W3_v8 (c : Dev nD) : W3 m ρ c (Proc.devRef .tc main_v8) = broadcastInDim S100000x1 ![0] bcast_S100000_S100000x1_0 (val_main_v17 (F := Ideal) (x1 m c)) := by
  show StableHlo.after hostOps1 (W2 m ρ c) (Proc.devRef .tc main_v8) = _
  after_results_simp
  exact W2_v8 m ρ c

set_option maxHeartbeats 4000000 in
theorem W3_v1 (c : Dev nD) : W3 m ρ c (Proc.devRef .tc main_v1) = val_main_v1 (F := Ideal) (x1 m c) := by
  show StableHlo.after hostOps1 (W2 m ρ c) (Proc.devRef .tc main_v1) = _
  after_results_simp
  exact W2_v1 m ρ c

set_option maxHeartbeats 4000000 in
theorem W3_v3 (c : Dev nD) : W3 m ρ c (Proc.devRef .tc main_v3) = val_main_v3 (F := Ideal) (x1 m c) := by
  show StableHlo.after hostOps1 (W2 m ρ c) (Proc.devRef .tc main_v3) = _
  after_results_simp
  exact W2_v3 m ρ c

set_option maxHeartbeats 4000000 in
theorem W3_arg5 (c : Dev nD) : W3 m ρ c (Proc.devRef .tc main_arg5) = x5 m c := by
  show StableHlo.after hostOps1 (W2 m ρ c) (Proc.devRef .tc main_arg5) = _
  after_results_simp
  exact W2_arg5 m ρ c

set_option maxHeartbeats 4000000 in
theorem W3_arg6 (c : Dev nD) : W3 m ρ c (Proc.devRef .tc main_arg6) = x6 m c := by
  show StableHlo.after hostOps1 (W2 m ρ c) (Proc.devRef .tc main_arg6) = _
  after_results_simp
  exact W2_arg6 m ρ c

set_option maxHeartbeats 4000000 in
theorem W3_arg8 (c : Dev nD) : W3 m ρ c (Proc.devRef .tc main_arg8) = x8 m c := by
  show StableHlo.after hostOps1 (W2 m ρ c) (Proc.devRef .tc main_arg8) = _
  after_results_simp
  exact W2_arg8 m ρ c

set_option maxHeartbeats 4000000 in
theorem W3_arg9 (c : Dev nD) : W3 m ρ c (Proc.devRef .tc main_arg9) = x9 m c := by
  show StableHlo.after hostOps1 (W2 m ρ c) (Proc.devRef .tc main_arg9) = _
  after_results_simp
  exact W2_arg9 m ρ c

set_option maxHeartbeats 4000000 in
theorem W3_arg10 (c : Dev nD) : W3 m ρ c (Proc.devRef .tc main_arg10) = x10 m c := by
  show StableHlo.after hostOps1 (W2 m ρ c) (Proc.devRef .tc main_arg10) = _
  after_results_simp
  exact W2_arg10 m ρ c

/-! ## After the second region -/

/-- The second region's result array is the reference's second layer. -/
theorem W4_v32 (c : Dev nD) : W4 m ρ c (Proc.devRef .tc main_v32) = val_main_v55 (F := Ideal) (x0 m c) (x1 m c) (x2 m c) (x3 m c) (x4 m c) (x5 m c) (x6 m c) (x7 m c) := by
  refine (W4_arr m ρ c 6).trans ((Cert.KernelIdeal.Blocks1.final (V3 m ρ) c).trans ?_)
  have e30 : V3 m ρ c main_v30 = _ := W3_v30 m ρ c
  have e8 : V3 m ρ c main_v8 = _ := W3_v8 m ρ c
  have e20 : V3 m ρ c main_v20 = _ := W3_v20 m ρ c
  have e5 : V3 m ρ c main_arg5 = _ := W3_arg5 m ρ c
  have e6 : V3 m ρ c main_arg6 = _ := W3_arg6 m ρ c
  have e31 : V3 m ρ c main_v31 = _ := W3_v31 m ρ c
  rw [e30, e8, e20, e5, e6, e31, Cert.Sage.RefSide.ref55, deg43]
  unfold val_main_v52
  exact layerK_eq_layerH relu _ _ _ _ _ _ _ _

/-- The degree column is an input of the region: it is read, not written. -/
theorem W4_v8 (c : Dev nD) : W4 m ρ c (Proc.devRef .tc main_v8) = broadcastInDim S100000x1 ![0] bcast_S100000_S100000x1_0 (val_main_v17 (F := Ideal) (x1 m c)) :=
  (W4_arr m ρ c 1).trans ((((dat1 (V3 m ρ) c).arrAt_in 1 rfl _).trans (A_eq1 (V3 m ρ) c 1)).trans (W3_v8 m ρ c))

theorem W4_v1 (c : Dev nD) : W4 m ρ c (Proc.devRef .tc main_v1) = val_main_v1 (F := Ideal) (x1 m c) :=
  (W4_of_ne m ρ c main_v1 (by decide)).trans (W3_v1 m ρ c)
theorem W4_v3 (c : Dev nD) : W4 m ρ c (Proc.devRef .tc main_v3) = val_main_v3 (F := Ideal) (x1 m c) :=
  (W4_of_ne m ρ c main_v3 (by decide)).trans (W3_v3 m ρ c)
theorem W4_arg8 (c : Dev nD) : W4 m ρ c (Proc.devRef .tc main_arg8) = x8 m c :=
  (W4_of_ne m ρ c main_arg8 (by decide)).trans (W3_arg8 m ρ c)
theorem W4_arg9 (c : Dev nD) : W4 m ρ c (Proc.devRef .tc main_arg9) = x9 m c :=
  (W4_of_ne m ρ c main_arg9 (by decide)).trans (W3_arg9 m ρ c)
theorem W4_arg10 (c : Dev nD) : W4 m ρ c (Proc.devRef .tc main_arg10) = x10 m c :=
  (W4_of_ne m ρ c main_arg10 (by decide)).trans (W3_arg10 m ρ c)

end Cert.KernelIdeal.Walk

end
-- ==== Proof.Blocks2.lean ====
/-
  Layer 2 of the network on the device: what the pipelined region leaves in its result array.

  The region visits 25 grid points; point `t` is handed rows `t · 4000 … t · 4000 + 3999` of the aggregate, of the
  degree column and of the node features, the two weight matrices and the bias row whole, and writes back the
  same rows of the result. Its body computes, at local row `p` and feature `q`, the layer of LibSageLayer.lean followed
  by the logistic function. Because the layer at a node reads that node's row only, the block a point writes
  back is the corresponding block of ONE whole-array function of the arrays as the region finds them; the 25
  blocks tile the result, so the result array ends holding that function.
-/
import proofs.«171230_j26096221290642_1_alg».proof.Proof.Gen.KernelIdeal.Frame
import proofs.«171230_j26096221290642_1_alg».proof.Proof.LibSageLayer

set_option maxRecDepth 16384

noncomputable section

namespace Cert.KernelIdeal.Blocks2

open Cert.KernelIdeal Cert.KernelIdeal.Gen Cert.Sage
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- Row `p` of the block of 4000 rows that grid point `tv` of 25 handles is row `tv · 4000 + p` of the array. -/
def row (tv : ℕ) (h : tv < 25) (p : Fin 4000) : Fin 100000 := ⟨tv * 4000 + p.val, by have := p.isLt; omega⟩

/-- The body's stored value at local row `p`, feature `q`: the layer of the blocks it loaded, then the activation. -/
theorem pay_apply (x1 : Vec Ideal S4000x1 .f32) (x0 x2 : Vec Ideal S4000x64 .f32) (x3 x4 : Vec Ideal S64x1 .f32)
    (x5 : Vec Ideal S1x1 .f32) (p : Fin 4000) (q : Fin 1) :
    k2_pay1 (F := Ideal) x1 x0 x2 x3 x4 x5 (ix2 p q)
      = sigm (pre x0 (fun r => x1 (ix2 r (0 : Fin 1))) x2 x3 x4 (fun c => x5 (ix2 (0 : Fin 1) c)) p q) := by
  unfold k2_pay1
  simp only [shapeCast_self]
  show FloatOps.logistic (F := Ideal) (φ := .f32) _ = sigm _
  unfold sigm
  refine congrArg (FloatOps.logistic (F := Ideal) (φ := .f32)) ?_
  exact kernel_pre_apply dot_S4000x64_S64x1_S4000x1_1_0_0_1_n_n rfl rfl rfl rfl rfl rfl x0 x1 x2 x3 x4 x5 _ _ _ p q

/-- The printed index maps over the grid: the three row-blocked operands and the result sit at block `(t, 0)`, the
    weights and the bias at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 25 := lt_of_lt_of_eq t.isLt N_2

variable (V : (c : Dev nD) → (b : Ref sig .tc) → Buf (Elt Ideal) ((c : Thread nD τ).loc b))

/-! ## Each operand's block at point `t`, read where it sits in its array -/

theorem rd0 (c : Dev nD) (t : Fin cfg2.N) (p : Fin 4000) (k : Fin 64) :
    iblk2 V c 0 t (ix2 p k) = V c main_v42 (ix2 (row t.val (t_lt t) p) k) := by
  obtain ⟨e0, e1, -⟩ := idx_facts t
  show V c main_v42 (((cfg2.win 0).blk t).view.emb (ix2 p k)) = _
  refine congrArg _ (funext fun a => Fin.ext ?_)
  match a with
  | ⟨0, _⟩ => show win2_0.index t (0 : Fin 2) * 4000 + 1 * p.val = t.val * 4000 + p.val; omega
  | ⟨1, _⟩ => show win2_0.index t (1 : Fin 2) * 64 + 1 * k.val = k.val; omega

theorem rd1 (c : Dev nD) (t : Fin cfg2.N) (p : Fin 4000) :
    iblk2 V c 1 t (ix2 p (0 : Fin 1)) = V c main_v8 (ix2 (row t.val (t_lt t) p) (0 : Fin 1)) := by
  obtain ⟨-, -, e0, e1, -⟩ := idx_facts t
  show V c main_v8 (((cfg2.win 1).blk t).view.emb (ix2 p (0 : Fin 1))) = _
  refine congrArg _ (funext fun a => Fin.ext ?_)
  match a with
  | ⟨0, _⟩ => show win2_1.index t (0 : Fin 2) * 4000 + 1 * p.val = t.val * 4000 + p.val; omega
  | ⟨1, _⟩ => show win2_1.index t (1 : Fin 2) * 1 + 1 * 0 = 0; omega

theorem rd2 (c : Dev nD) (t : Fin cfg2.N) (p : Fin 4000) (k : Fin 64) :
    iblk2 V c 2 t (ix2 p k) = V c main_v32 (ix2 (row t.val (t_lt t) p) k) := by
  obtain ⟨-, -, -, -, e0, e1, -⟩ := idx_facts t
  show V c main_v32 (((cfg2.win 2).blk t).view.emb (ix2 p k)) = _
  refine congrArg _ (funext fun a => Fin.ext ?_)
  match a with
  | ⟨0, _⟩ => show win2_2.index t (0 : Fin 2) * 4000 + 1 * p.val = t.val * 4000 + p.val; omega
  | ⟨1, _⟩ => show win2_2.index t (1 : Fin 2) * 64 + 1 * k.val = k.val; omega

theorem rd3 (c : Dev nD) (t : Fin cfg2.N) (k : Fin 64) (q : Fin 1) :
    iblk2 V c 3 t (ix2 k q) = V c main_arg8 (ix2 k q) := by
  obtain ⟨-, -, -, -, -, -, e0, e1, -⟩ := idx_facts t
  show V c main_arg8 (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 1 + 1 * q.val = q.val; omega

theorem rd4 (c : Dev nD) (t : Fin cfg2.N) (k : Fin 64) (q : Fin 1) :
    iblk2 V c 4 t (ix2 k q) = V c main_arg9 (ix2 k q) := by
  obtain ⟨-, -, -, -, -, -, -, -, e0, e1, -⟩ := idx_facts t
  show V c main_arg9 (((cfg2.win 4).blk t).view.emb (ix2 k q)) = _
  refine congrArg _ (funext fun a => Fin.ext ?_)
  match a with
  | ⟨0, _⟩ => show win2_4.index t (0 : Fin 2) * 64 + 1 * k.val = k.val; omega
  | ⟨1, _⟩ => show win2_4.index t (1 : Fin 2) * 1 + 1 * q.val = q.val; omega

theorem rd5 (c : Dev nD) (t : Fin cfg2.N) (q : Fin 1) :
    iblk2 V c 5 t (ix2 (0 : Fin 1) q) = V c main_v43 (ix2 (0 : Fin 1) q) := by
  obtain ⟨-, -, -, -, -, -, -, -, -, -, e0, e1, -⟩ := idx_facts t
  show V c main_v43 (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 1 + 1 * q.val = q.val; omega

/-- The result's block at point `t` sits at rows `t · 4000 …` of the result array. -/
theorem emb6 (t : Fin cfg2.N) (p : Fin 4000) (q : Fin 1) :
    ((cfg2.win 6).blk t).view.emb (ix2 p q) = ix2 (row t.val (t_lt t) p) q := by
  obtain ⟨-, -, -, -, -, -, -, -, -, -, -, -, e0, e1⟩ := idx_facts t
  refine funext fun a => Fin.ext ?_
  match a with
  | ⟨0, _⟩ => show win2_6.index t (0 : Fin 2) * 4000 + 1 * p.val = t.val * 4000 + p.val; omega
  | ⟨1, _⟩ => show win2_6.index t (1 : Fin 2) * 1 + 1 * q.val = q.val; omega

/-! ## From the blocks to the array -/

/-- What point `t` writes back is block `t` of the whole-array layer of the arrays as the region finds them. -/
theorem flushed_eq (c : Dev nD) (t : Fin cfg2.N) :
    (dat2 V c).flushed 6 t = ((cfg2.win 6).blk t).view.read (Elt Ideal)
      (layerK sigm (V c main_v42) (V c main_v8) (V c main_v32) (V c main_arg8) (V c main_arg9) (V c main_v43)) := by
  show (cfg2.win 6).cut (grid2.coords t) ((dat2 V c).after 6 t) = _
  rw [after2_6]
  unfold out2_6
  rw [View.canon_unit_zero hz]
  simp only [View.ld_unit_zero (S := S4000x1) hz, View.ld_unit_zero (S := S4000x64) hz, View.ld_unit_zero (S := S64x1) hz, View.ld_unit_zero (S := S1x1) hz]
  funext j
  obtain ⟨p, q, rfl⟩ : ∃ (p : Fin 4000) (q : Fin 1), j = ix2 p q := ⟨j 0, j 1, eq_ix2 j⟩
  show k2_pay1 (iblk2 V c 1 t) (iblk2 V c 0 t) (iblk2 V c 2 t) (iblk2 V c 3 t) (iblk2 V c 4 t) (iblk2 V c 5 t) (ix2 p q)
    = layerK sigm (V c main_v42) (V c main_v8) (V c main_v32) (V c main_arg8) (V c main_arg9) (V c main_v43)
        (((cfg2.win 6).blk t).view.emb (ix2 p q))
  rw [emb6 t p q, layerK_apply]
  refine (pay_apply (iblk2 V c 1 t) (iblk2 V c 0 t) (iblk2 V c 2 t) (iblk2 V c 3 t) (iblk2 V c 4 t) (iblk2 V c 5 t) p q).trans ?_
  refine congrArg sigm ?_
  exact pre_congr _ _ _ _ _ _ _ _ _ _ _ _ p (row t.val (t_lt t) p) q
    (fun k => rd0 V c t p k) (rd1 V c t p) (fun k => rd2 V c t p k)
    (fun k => rd3 V c t k q) (fun k => rd4 V c t k q) (rd5 V c t q)

/-- An index of the result array is in point `t`'s block iff each coordinate is in the block's range on its axis. -/
theorem mem_blk (t : Fin cfg2.N) (i : S100000x1.Idx) :
    i ∈ ((cfg2.win 6).blk t).view.set ↔ ∀ a : Fin 2, win2_6.index t a * S4000x1.size a ≤ (i a).val ∧ (i a).val < win2_6.index t a * S4000x1.size a + S4000x1.size a := by
  show i ∈ ((View.whole main_v44).slice (win2_6.rect t)).set ↔ _
  rw [View.set_slice_whole, Rect.mem_set_unit]
  exact Iff.rfl

/-- Every index of the result array is in some point's block: row `r` is in the block of point `r / 4000`. -/
theorem cover (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  obtain ⟨-, -, -, -, -, -, -, -, -, -, -, -, e0, e1⟩ := idx_facts t
  have ht : t.val = (i 0).val / 4000 := rfl
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 1 ≤ (i 1).val ∧ (i 1).val < win2_6.index t (1 : Fin 2) * 1 + 1; omega

/-- The result array after the region: the whole-array layer of the arrays as the region finds them. -/
theorem final (c : Dev nD) : (dat2 V c).arrAt 6 cfg2.N
    = layerK sigm (V c main_v42) (V c main_v8) (V c main_v32) (V c main_arg8) (V c main_arg9) (V c main_v43) :=
  (dat2 V c).arrAt_eq_of_cover 6 _ (fun t _ => flushed_eq V c t) cover

end Cert.KernelIdeal.Blocks2

end
-- ==== Proof.Walk3.lean ====
/-
  The idealized kernel program's buffers at its last two segment boundaries, and so its result.

  The third stretch of host operations aggregates the second layer's result over the edges and lays the last bias
  out as a row; the third region's result array is the whole-array layer of these followed by the logistic
  function (Blocks2.lean), which is the reference's result stage (RefSide.lean). Hence the program's result
  buffer ends holding the reference's result stage of the launch arguments.
-/
import proofs.«171230_j26096221290642_1_alg».proof.Proof.Walk2
import proofs.«171230_j26096221290642_1_alg».proof.Proof.Blocks2
import Idealize.ShloMosaic.Lib.StableHlo.Run

set_option maxRecDepth 16384

noncomputable section

namespace Cert.KernelIdeal.Walk

open Cert.KernelIdeal Cert.KernelIdeal.Gen Cert.Sage Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the third stretch of host operations -/

set_option maxHeartbeats 4000000 in
theorem W5_v42 (c : Dev nD) : W5 m ρ c (Proc.devRef .tc main_v42) = val_main_v65 (F := Ideal) (x0 m c) (x1 m c) (x2 m c) (x3 m c) (x4 m c) (x5 m c) (x6 m c) (x7 m c) := by
  show StableHlo.after hostOps2 (W4 m ρ c) (Proc.devRef .tc main_v42) = _
  after_results_simp
  rw [W4_v32 m ρ c, W4_v1 m ρ c, W4_v3 m ρ c]
  rfl

set_option maxHeartbeats 4000000 in
theorem W5_v43 (c : Dev nD) : W5 m ρ c (Proc.devRef .tc main_v43) = val_main_v78 (F := Ideal) (x10 m c) := by
  show StableHlo.after hostOps2 (W4 m ρ c) (Proc.devRef .tc main_v43) = _
  after_results_simp
  rw [W4_arg10 m ρ c]
  rfl

set_option maxHeartbeats 4000000 in
theorem W5_v32 (c : Dev nD) : W5 m ρ c (Proc.devRef .tc main_v32) = val_main_v55 (F := Ideal) (x0 m c) (x1 m c) (x2 m c) (x3 m c) (x4 m c) (x5 m c) (x6 m c) (x7 m c) := by
  show StableHlo.after hostOps2 (W4 m ρ c) (Proc.devRef .tc main_v32) = _
  after_results_simp
  exact W4_v32 m ρ c

set_option maxHeartbeats 4000000 in
theorem W5_v8 (c : Dev nD) : W5 m ρ c (Proc.devRef .tc main_v8) = broadcastInDim S100000x1 ![0] bcast_S100000_S100000x1_0 (val_main_v17 (F := Ideal) (x1 m c)) := by
  show StableHlo.after hostOps2 (W4 m ρ c) (Proc.devRef .tc main_v8) = _
  after_results_simp
  exact W4_v8 m ρ c

set_option maxHeartbeats 4000000 in
theorem W5_arg8 (c : Dev nD) : W5 m ρ c (Proc.devRef .tc main_arg8) = x8 m c := by
  show StableHlo.after hostOps2 (W4 m ρ c) (Proc.devRef .tc main_arg8) = _
  after_results_simp
  exact W4_arg8 m ρ c

set_option maxHeartbeats 4000000 in
theorem W5_arg9 (c : Dev nD) : W5 m ρ c (Proc.devRef .tc main_arg9) = x9 m c := by
  show StableHlo.after hostOps2 (W4 m ρ c) (Proc.devRef .tc main_arg9) = _
  after_results_simp
  exact W4_arg9 m ρ c

/-! ## After the third region -/

/-- The program's result buffer at the last boundary is the reference's result stage of the launch arguments. -/
theorem W6_v44 (c : Dev nD) : W6 m ρ c (Proc.devRef .tc main_v44) = val_main_v86 (F := Ideal) (x0 m c) (x1 m c) (x2 m c) (x3 m c) (x4 m c) (x5 m c) (x6 m c) (x7 m c) (x8 m c) (x9 m c) (x10 m c) := by
  refine (W6_arr m ρ c 6).trans ((Cert.KernelIdeal.Blocks2.final (V5 m ρ) c).trans ?_)
  have e42 : V5 m ρ c main_v42 = _ := W5_v42 m ρ c
  have e8 : V5 m ρ c main_v8 = _ := W5_v8 m ρ c
  have e32 : V5 m ρ c main_v32 = _ := W5_v32 m ρ c
  have e8' : V5 m ρ c main_arg8 = _ := W5_arg8 m ρ c
  have e9' : V5 m ρ c main_arg9 = _ := W5_arg9 m ρ c
  have e43 : V5 m ρ c main_v43 = _ := W5_v43 m ρ c
  rw [e42, e8, e32, e8', e9', e43, Cert.Sage.RefSide.ref86, deg69]
  unfold val_main_v78
  exact layerK_eq_layerH sigm _ _ _ _ _ _ _ _

end Cert.KernelIdeal.Walk

end
-- ==== Proof.lean ====
/-
  A three-layer graph network with mean aggregation (relu, relu, logistic), as a tiled device program and as a
  plain array program, computes one function on the extended reals.

  Both programs take node features `x`, an edge list and three layers' weights and biases. In each layer both
  gather the current features by source node, add them up by destination node, divide by the destination's
  degree clamped below by one, multiply by one weight matrix, add the node's own features times a second
  weight matrix and the bias, and apply the layer's activation. The device program does the gather and the
  scatter-add on the host, by the very operations the array program uses, and does everything after them in a
  pipelined region that walks the nodes in 25 blocks of 4000 rows; it narrows the matrix products' operands,
  which on the extended reals changes nothing. A layer's value at a node depends on that node's row only, so
  the blocks are restrictions of one whole-array function (Blocks0/1/2.lean), that function is the array
  program's layer (LibSageLayer.lean, RefSide.lean), and by walking the device program's buffers from the launch to the
  return (KRun.lean, Walk1/2/3.lean) its result buffer ends holding the array program's result stage of the same
  arguments. No step uses a law that fails at an infinity, so finiteness of the inputs is never used.

  The frames of the two device programs are the generated ones; the array program's frame is its generated run
  with the result dropped; the idealization rewrote no operation, so there is nothing to preserve.
-/
import proofs.«171230_j26096221290642_1_alg».proof.Defs
import proofs.«171230_j26096221290642_1_alg».proof.Proof.Gen.Kernel
import proofs.«171230_j26096221290642_1_alg».proof.Proof.Gen.Kernel.Skeleton
import proofs.«171230_j26096221290642_1_alg».proof.Proof.Gen.Kernel.Launch
import proofs.«171230_j26096221290642_1_alg».proof.Proof.Gen.Kernel.Points
import proofs.«171230_j26096221290642_1_alg».proof.Proof.Gen.Kernel.Frame
import proofs.«171230_j26096221290642_1_alg».proof.Proof.Gen.KernelIdeal
import proofs.«171230_j26096221290642_1_alg».proof.Proof.Gen.KernelIdeal.Skeleton
import proofs.«171230_j26096221290642_1_alg».proof.Proof.Gen.KernelIdeal.Launch
import proofs.«171230_j26096221290642_1_alg».proof.Proof.Gen.KernelIdeal.Points
import proofs.«171230_j26096221290642_1_alg».proof.Proof.Gen.KernelIdeal.Frame
import proofs.«171230_j26096221290642_1_alg».proof.Proof.Gen.ReferenceIdeal
import proofs.«171230_j26096221290642_1_alg».proof.Proof.Gen.ReferenceIdeal.Run
import proofs.«171230_j26096221290642_1_alg».proof.Proof.Gen.ReferenceIdeal.Read
import proofs.«171230_j26096221290642_1_alg».proof.Proof.Gen.Pre_finite_inputs
import proofs.«171230_j26096221290642_1_alg».proof.Proof.KRun
import proofs.«171230_j26096221290642_1_alg».proof.Proof.Walk3
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The array program runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments, end with the array program's result stage of
    those arguments in their result buffers. -/
theorem algebraic : Cert.algebraic_KernelIdeal_ReferenceIdeal := by
  intro m ρ m' ρ' _ hagree
  refine ⟨fun c => Cert.ReferenceIdeal.Read.val_main_v86 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.W6_v44 m ρ c), (h c).2⟩)
      (Cert.KernelIdeal.Val.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v86_eq, h0, h1, h2, h3, h4, h5, h6, h7, h8, h9, h10]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
